-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x512x512 : Shape := ⟨4, ![64, 2, 512, 512]⟩
abbrev S_ : Shape := ⟨0, ![]⟩

class Facts : Prop where
  bcast_S_S64x2x512x512 : S_.BroadcastsInDim S64x2x512x512 (![] : Fin 0 → Fin S64x2x512x512.rank)
  reducesTo_S64x2x512x512_S_d0_1_2_3 : S64x2x512x512.ReducesTo [0, 1, 2, 3] S_
  h_S_ : 0 < S_.numel

variable [Facts]

def fn {F : FTy → Type} [FloatOps F] (main_arg0 : FVec F S64x2x512x512 .f32) (main_arg1 : FVec F S64x2x512x512 .f32) : IVec S_ 1 :=
  let main_v0 : FVec F S64x2x512x512 .f32 := Host.absf main_arg0
  let main_cst : FVec F S_ .f32 := constant S_ .f32 0x7F800000#32
  let main_v1 : FVec F S64x2x512x512 .f32 := broadcastInDim S64x2x512x512 ![] bcast_S_S64x2x512x512 main_cst
  let main_v2 : IVec S64x2x512x512 1 := cmpf .olt main_v0 main_v1
  let main_c : IVec S_ 1 := constantI S_ 1 1#1
  let main_v3 : IVec S_ 1 := (fun x v => Host.reduce IntOp.andi x v reducesTo_S64x2x512x512_S_d0_1_2_3 h_S_) main_v2 main_c
  let main_v4 : FVec F S64x2x512x512 .f32 := Host.absf main_arg1
  let main_cst_0 : FVec F S_ .f32 := constant S_ .f32 0x7F800000#32
  let main_v5 : FVec F S64x2x512x512 .f32 := broadcastInDim S64x2x512x512 ![] bcast_S_S64x2x512x512 main_cst_0
  let main_v6 : IVec S64x2x512x512 1 := cmpf .olt main_v4 main_v5
  let main_c_1 : IVec S_ 1 := constantI S_ 1 1#1
  let main_v7 : IVec S_ 1 := (fun x v => Host.reduce IntOp.andi x v reducesTo_S64x2x512x512_S_d0_1_2_3 h_S_) main_v6 main_c_1
  let main_v8 : IVec S_ 1 := andi main_v3 main_v7
  main_v8
-- ==== Kernel.lean ====
abbrev S64x2x512x512 : Shape := ⟨4, ![64, 2, 512, 512]⟩
abbrev S16x128 : Shape := ⟨2, ![16, 128]⟩
abbrev S4x1x512x512 : Shape := ⟨4, ![4, 1, 512, 512]⟩
abbrev S8x128 : Shape := ⟨2, ![8, 128]⟩
abbrev S4x512x512 : Shape := ⟨3, ![4, 512, 512]⟩
abbrev S4x512 : Shape := ⟨2, ![4, 512]⟩
abbrev S4x512x1 : Shape := ⟨3, ![4, 512, 1]⟩
abbrev S4x1 : Shape := ⟨2, ![4, 1]⟩
abbrev S4x1x1 : Shape := ⟨3, ![4, 1, 1]⟩
abbrev S1x1 : Shape := ⟨2, ![1, 1]⟩
abbrev S1x1x1 : Shape := ⟨3, ![1, 1, 1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S64x2x512x512, .f32⟩
  | .hbm, ⟨1, _⟩ => ⟨S64x2x512x512, .f32⟩
  | .hbm, ⟨2, _⟩ => ⟨S16x128, .f32⟩
  | .hbm, ⟨3, _⟩ => ⟨S_, .f32⟩
  | .hbm, ⟨4, _⟩ => ⟨S_, .f32⟩
  | .local _ .vmem, ⟨0, _⟩ => ⟨S4x1x512x512, .f32⟩
  | .local _ .vmem, ⟨1, _⟩ => ⟨S4x1x512x512, .f32⟩
  | .local _ .vmem, ⟨2, _⟩ => ⟨S4x1x512x512, .f32⟩
  | .local _ .vmem, ⟨3, _⟩ => ⟨S4x1x512x512, .f32⟩
  | .local _ .vmem, ⟨4, _⟩ => ⟨S8x128, .f32⟩
  | .local _ .vmem, ⟨5, _⟩ => ⟨S8x128, .f32⟩
  | _, _ => ⟨S64x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S4x1x512x512_S4x1x512x512_0_0_0_0 : ∀ a, (![0, 0, 0, 0] : Fin 4 → Nat) a + S4x1x512x512.size a ≤ S4x1x512x512.size a
  h_S4x1x512x512 : 0 < S4x1x512x512.numel
  shapeCasts_S4x1x512x512_S4x512x512 : S4x1x512x512.ShapeCasts S4x512x512
  reduces_S4x512x512_S4x512 : S4x512x512.Reduces [2] S4x512
  shapeCasts_S4x512_S4x512x1 : S4x512.ShapeCasts S4x512x1
  reduces_S4x512x1_S4x1 : S4x512x1.Reduces [1] S4x1
  shapeCasts_S4x1_S4x1x1 : S4x1.ShapeCasts S4x1x1
  reduces_S4x1x1_S1x1 : S4x1x1.Reduces [0] S1x1
  shapeCasts_S1x1_S1x1x1 : S1x1.ShapeCasts S1x1x1
  inpos_S1x1x1_p0_0_0 : ∀ a, (![0, 0, 0] : Fin 3 → Nat) a < S1x1x1.size a
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x512x512.size a ≤ S64x2x512x512.size a
  hwx0_0 : ∀ i : grid0.Coords, EltTy.bits .f32 = 32 ∨ (Rect.block (s := S64x2x512x512) S4x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x512x512.size a ≤ S64x2x512x512.size a
  hwx0_1 : ∀ i : grid0.Coords, EltTy.bits .f32 = 32 ∨ (Rect.block (s := S64x2x512x512) S4x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S4x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2x512x512 : Shape := ⟨4, ![64, 2, 512, 512]⟩
abbrev S64x1x512x512 : Shape := ⟨4, ![64, 1, 512, 512]⟩
abbrev S64x512x512 : Shape := ⟨3, ![64, 512, 512]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S64x2x512x512, .f32⟩
  | .hbm, ⟨1, _⟩ => ⟨S64x2x512x512, .f32⟩
  | .hbm, ⟨2, _⟩ => ⟨S64x1x512x512, .f32⟩
  | .hbm, ⟨3, _⟩ => ⟨S64x512x512, .f32⟩
  | .hbm, ⟨4, _⟩ => ⟨S64x1x512x512, .f32⟩
  | .hbm, ⟨5, _⟩ => ⟨S64x512x512, .f32⟩
  | .hbm, ⟨6, _⟩ => ⟨S64x512x512, .f32⟩
  | .hbm, ⟨7, _⟩ => ⟨S64x512x512, .f32⟩
  | .hbm, ⟨8, _⟩ => ⟨S_, .f32⟩
  | .hbm, ⟨9, _⟩ => ⟨S64x512x512, .f32⟩
  | .hbm, ⟨10, _⟩ => ⟨S64x512x512, .f32⟩
  | .hbm, ⟨11, _⟩ => ⟨S_, .f32⟩
  | .hbm, ⟨12, _⟩ => ⟨S64x512x512, .f32⟩
  | .hbm, ⟨13, _⟩ => ⟨S64x512x512, .f32⟩
  | .hbm, ⟨14, _⟩ => ⟨S64x512x512, .f32⟩
  | .hbm, ⟨15, _⟩ => ⟨S64x512x512, .f32⟩
  | .hbm, ⟨16, _⟩ => ⟨S64x512x512, .f32⟩
  | .hbm, ⟨17, _⟩ => ⟨S64x512x512, .f32⟩
  | .hbm, ⟨18, _⟩ => ⟨S64x512x512, .f32⟩
  | .hbm, ⟨19, _⟩ => ⟨S_, .f32⟩
  | .hbm, ⟨20, _⟩ => ⟨S_, .f32⟩
  | _, _ => ⟨S64x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  slices_S64x2x512x512_S64x1x512x512_0_0_0_0 : S64x2x512x512.Slices ![0, 0, 0, 0] S64x1x512x512
  shapeCasts_S64x1x512x512_S64x512x512 : S64x1x512x512.ShapeCasts S64x512x512
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts₀]

class Facts : Prop extends Facts₀ where

variable [Facts]
-- ==== Proof.Body.lean ====
/-
  What one run of the kernel body leaves in the output tile, as a value.

  The body has two control cases. At the first point of each chunk of the batch (inner grid coordinate 0) it first
  stores a zero tile, reads it back and then stores that tile plus the point's contribution; at every other point it
  reads the tile left by the point before and stores that plus the contribution. In both cases the last store covers
  the whole 8 × 128 tile, so the tile ends holding that store's value: the accumulation payload applied to the two
  input blocks and to the tile it read (the zero tile in the first case).
-/
import proofs.«140847_j32306744000922_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem zero_off2 : (![0, 0] : Fin 2 → Nat) = fun _ => 0 := funext fun a => by fin_cases a <;> rfl
theorem zero_off4 : (![0, 0, 0, 0] : Fin 4 → Nat) = fun _ => 0 := funext fun a => by fin_cases a <;> rfl

/-- A later point of a chunk: the tile ends at the accumulation payload of the two input blocks and of the tile
    `xo` the point before left. -/
theorem later_point (c : Dev nD) (i : grid0.Coords) (a2 : Memref sig .tc .vmem S4x1x512x512 .f32) (h2 : a2.IsWhole)
    (a3 : Memref sig .tc .vmem S4x1x512x512 .f32) (h3 : a3.IsWhole) (a4 : Memref sig .tc .vmem S8x128 .f32) (h4 : a4.IsWhole)
    (hc : ¬cond0_0 i) (x0 x1 : Vec F S4x1x512x512 .f32) (xo : Vec F S8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero zero_off2]
  simp only [View.readAt_eq_ld, h2.read_unread, h3.read_unread, h4.read_unread,
    View.ld_unit_zero (S := S4x1x512x512) zero_off4, View.ld_unit_zero (S := S8x128) zero_off2]

/-- The first point of a chunk: the tile ends at the accumulation payload of the two input blocks and of the zero
    tile the body has just stored and read back. -/
theorem first_point (c : Dev nD) (i : grid0.Coords) (a2 : Memref sig .tc .vmem S4x1x512x512 .f32) (h2 : a2.IsWhole)
    (a3 : Memref sig .tc .vmem S4x1x512x512 .f32) (h3 : a3.IsWhole) (a4 : Memref sig .tc .vmem S8x128 .f32) (h4 : a4.IsWhole)
    (hc : cond0_0 i) (x0 x1 : Vec F S4x1x512x512 .f32) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) zero_off2, View.readCov_unit_zero (S := S8x128) _ zero_off2]
  simp only [View.readAt_eq_ld, h2.read_unread, h3.read_unread,
    View.ld_unit_zero (S := S4x1x512x512) zero_off4]

end Cert.KernelIdeal.Body

end
-- ==== Proof.SumLaws.lean ====
/-
  Laws of finite sums of extended reals used to join the two programs.

  Addition on the extended reals is commutative and associative (with `⊤ + ⊥ = ⊥`), and multiplication is
  commutative and associative too; nothing here cancels or distributes over a sum, so every law holds at the
  infinities as well as at the reals.
-/
import Mathlib.Data.EReal.Inv
import Mathlib.Algebra.BigOperators.Fin
import Mathlib.Algebra.BigOperators.Intervals
import Mathlib.Logic.Equiv.Fin.Basic

open Finset

namespace Cert.SumLaws

/-- `n` copies of `t * κ` add up to `t` when `κ * n = 1`: a repeated sum of an extended real is its product
    with the count, and the product is commutative and associative. -/
theorem sum_const_mul_eq {ι : Type*} [Fintype ι] (t κ : EReal) (h : κ * (Fintype.card ι : EReal) = 1) :
    ∑ _j : ι, t * κ = t := by
  rw [Finset.sum_const, Finset.card_univ, EReal.nsmul_eq_mul]
  calc (Fintype.card ι : EReal) * (t * κ) = t * (κ * (Fintype.card ι : EReal)) := by
        rw [mul_comm (Fintype.card ι : EReal) (t * κ), mul_assoc]
    _ = t := by rw [h, mul_one]

/-- A sum over `m` groups of `n` consecutive naturals is the sum over the first `m * n` naturals: the position
    `n * k + b` of member `b` of group `k` runs through each of them once. -/
theorem sum_groups {M : Type*} [AddCommMonoid M] (m n : ℕ) (g : ℕ → M) :
    ∑ k : Fin m, ∑ b : Fin n, g (n * k + b) = ∑ B : Fin (m * n), g B := by
  rw [← Equiv.sum_comp finProdFinEquiv (fun B : Fin (m * n) => g B), Fintype.sum_prod_type]
  refine Finset.sum_congr rfl fun k _ => Finset.sum_congr rfl fun b _ => congrArg g ?_
  rw [finProdFinEquiv_apply_val]
  exact add_comm _ _

end Cert.SumLaws
-- ==== Proof.Spec.lean ====
/-
  The specification both programs meet, over the extended reals.

  The two arguments `X` (predictions) and `Y` (targets) are arrays of shape 64 × 2 × 512 × 512; only channel 0
  enters the result. The loss of one pixel is the weighted binary cross-entropy
  `-(y · log x · 10 + (1 - y) · log (1 + (-x)))`; the result is its sum over the 64 images and the 512 × 512 pixels
  of each.

  The kernel reaches that sum in stages. It walks the batch in 16 groups of 4 images; group `k` contributes the sum
  `pt k` of its images. The groups form 2 chunks of 8; while a chunk is walked an 8 × 128 tile accumulates, in each of
  its 1024 entries, `pt k · 2⁻¹⁰` for each group of the chunk, and the host then adds up all entries of both tiles.
  Since 1024 copies of `t · 2⁻¹⁰` add up to `t` for every extended real `t` (the infinities included), and sums of
  extended reals may be regrouped freely, the host's sum is the sum of all `pt k`, which is the total.
-/
import Idealize.ShloMosaic.PureOps.Ideal.Laws
import Idealize.ShloMosaic.Lib.ValueIdx
import proofs.«140847_j32306744000922_1_alg».proof.Proof.SumLaws

noncomputable section

open Finset
open Idealize.ShloMosaic Idealize.ShloMosaic.ValueIdx

namespace Cert.Spec

/-- An array of the arguments' shape, over the extended reals. -/
abbrev Arr : Type := (⟨4, ![64, 2, 512, 512]⟩ : Shape).Idx → EReal

/-- A group's block of one channel: 4 images. -/
abbrev Blk : Type := (⟨4, ![4, 1, 512, 512]⟩ : Shape).Idx → EReal

/-- The weighted binary cross-entropy of one pixel with prediction `x` and target `y`. -/
def loss (x y : EReal) : EReal :=
  -((y * Ideal.log x) * Ideal.ofBits .f32 0x41200000#32 + (Ideal.ofBits .f32 0x3F800000#32 - y) * Ideal.log1p (-x))

/-- The same with both negations written as differences from the zero word: `0 - a = -a` on the extended reals. -/
theorem loss_zero_sub (x y : EReal) :
    Ideal.ofBits .f32 0x00000000#32 - ((y * Ideal.log x) * Ideal.ofBits .f32 0x41200000#32
      + (Ideal.ofBits .f32 0x3F800000#32 - y) * Ideal.log1p (Ideal.ofBits .f32 0x00000000#32 - x)) = loss x y := by
  rw [Ideal.ofBits_zero_f32, zero_sub, zero_sub]; rfl

/-- Batch position `B` as a coordinate of the arrays (positions below 64 are themselves). -/
def row (B : ℕ) : Fin 64 := ⟨B % 64, Nat.mod_lt _ (by norm_num)⟩

theorem row_val {B : ℕ} (h : B < 64) : (row B).val = B := Nat.mod_eq_of_lt h

/-- The loss of pixel `(h, w)` of channel 0 of image `B`. -/
def px (X Y : Arr) (B : ℕ) (h w : Fin 512) : EReal := loss (X (ix4 (row B) 0 h w)) (Y (ix4 (row B) 0 h w))

/-- The loss summed over image `B`. -/
def img (X Y : Arr) (B : ℕ) : EReal := ∑ h : Fin 512, ∑ w : Fin 512, px X Y B h w

/-- The loss summed over the four images of group `k`. -/
def pt (X Y : Arr) (k : ℕ) : EReal := ∑ b : Fin 4, img X Y (4 * k + b)

/-- The result: the loss summed over all 64 images. -/
def total (X Y : Arr) : EReal := ∑ B : Fin 64, img X Y B

/-- The loss summed over a block of 4 images, read from the block itself. -/
def blockSum (x y : Blk) : EReal :=
  ∑ b : Fin 4, ∑ h : Fin 512, ∑ w : Fin 512, loss (x (ix4 b 0 h w)) (y (ix4 b 0 h w))

/-- The factor each group's sum is spread over a tile with. -/
abbrev scale : EReal := Ideal.ofBits .f32 0x3A800000#32

/-- It denotes `2⁻¹⁰`. -/
theorem scale_val : scale = ((1 / 1024 : ℝ) : EReal) := by
  simp [Ideal.ofBits, Ideal.ieee, -EReal.coe_mul]; norm_num

/-- A tile has 1024 entries, and `2⁻¹⁰ · 1024 = 1`. -/
theorem scale_mul_card : scale * ((Fintype.card (Fin 8 × Fin 128) : ℕ) : EReal) = 1 := by
  have hc : Fintype.card (Fin 8 × Fin 128) = 1024 := by simp
  rw [hc, scale_val, ← EReal.coe_natCast, ← EReal.coe_mul]
  norm_num

/-- Spread over a tile and added back up, an extended real is itself. -/
theorem sum_tile (t : EReal) : ∑ _p : Fin 8 × Fin 128, t * scale = t :=
  Cert.SumLaws.sum_const_mul_eq t scale scale_mul_card

/-! ## The tile while a chunk is walked -/

/-- What every entry of the tile holds after grid point `n`: the spread sums of the groups of `n`'s chunk up to `n`. -/
def accAfter (X Y : Arr) (n : ℕ) : EReal := ∑ i ∈ range (n % 8 + 1), pt X Y (8 * (n / 8) + i) * scale

/-- What every entry of chunk `cc`'s tile holds when it is written back. -/
def tileVal (X Y : Arr) (cc : ℕ) : EReal := ∑ i ∈ range 8, pt X Y (8 * cc + i) * scale

theorem accAfter_first (X Y : Arr) (n : ℕ) (h : n % 8 = 0) : accAfter X Y n = 0 + pt X Y n * scale := by
  unfold accAfter
  rw [h, zero_add, Finset.sum_range_one, zero_add, show 8 * (n / 8) + 0 = n from by omega]

theorem accAfter_later (X Y : Arr) (n : ℕ) (h : ¬n % 8 = 0) :
    accAfter X Y n = accAfter X Y (n - 1) + pt X Y n * scale := by
  unfold accAfter
  rw [show n % 8 + 1 = ((n - 1) % 8 + 1) + 1 from by omega, Finset.sum_range_succ,
    show n / 8 = (n - 1) / 8 from by omega, show 8 * ((n - 1) / 8) + ((n - 1) % 8 + 1) = n from by omega]

theorem accAfter_last (X Y : Arr) (n : ℕ) (h : n % 8 = 7) : accAfter X Y n = tileVal X Y (n / 8) := by
  unfold accAfter tileVal
  rw [h]

/-! ## The array the region leaves, and its sum -/

/-- The 16 × 128 array of the two tiles: rows `8 cc … 8 cc + 7` hold chunk `cc`'s tile. -/
def partials (X Y : Arr) : (⟨2, ![16, 128]⟩ : Shape).Idx → EReal := fun j => tileVal X Y ((j 0).val / 8)

/-- A written-back tile adds up to the sum of its chunk's groups. -/
theorem sum_tileVal (X Y : Arr) (cc : ℕ) :
    ∑ _p : Fin 8 × Fin 128, tileVal X Y cc = ∑ i : Fin 8, pt X Y (8 * cc + i) := by
  unfold tileVal
  rw [Finset.sum_comm, ← Fin.sum_univ_eq_sum_range (fun i => ∑ _p : Fin 8 × Fin 128, pt X Y (8 * cc + i) * scale) 8]
  exact Finset.sum_congr rfl fun i _ => sum_tile _

/-- The groups' sums add up to the total. -/
theorem sum_pt (X Y : Arr) : ∑ k : Fin 16, pt X Y k = total X Y :=
  Cert.SumLaws.sum_groups 16 4 (img X Y)

/-- All entries of the array of tiles add up to the total. -/
theorem sum_partials (X Y : Arr) : ∑ j, partials X Y j = total X Y := by
  rw [sum_idx2, ← sum_pt]
  have e : ∀ g : ℕ → EReal, ∑ r : Fin 16, g r = ∑ cc : Fin 2, ∑ r' : Fin 8, g (8 * cc + r') :=
    fun g => (Cert.SumLaws.sum_groups 2 8 g).symm
  rw [e (fun r => pt X Y r)]
  show ∑ r : Fin 16, ∑ l : Fin 128, tileVal X Y (r.val / 8) = _
  rw [e (fun r => ∑ _l : Fin 128, tileVal X Y (r / 8))]
  refine Finset.sum_congr rfl fun cc _ => ?_
  rw [← sum_tileVal, Fintype.sum_prod_type]
  refine Finset.sum_congr rfl fun r' _ => Finset.sum_congr rfl fun _ _ => ?_
  rw [show (8 * cc.val + r'.val) / 8 = cc.val from by have := r'.isLt; omega]

end Cert.Spec

end
-- ==== Proof.Payload.lean ====
/-
  The accumulation payload of the kernel body, read at an index over the extended reals.

  From a block `x` of 4 predicted images, the matching block `y` of targets and the tile `acc` read from the output
  buffer, the body computes the pixel losses, sums them along each row of pixels, then along the rows of each image, then
  over the 4 images, and adds that one number times `2⁻¹⁰` to every entry of `acc`. Each stage is named here, the payload
  is their composition as printed, and at the extended reals each reduction is the plain finite sum over the reduced
  coordinate, so entry `j` of the payload is `acc j + blockSum x y · 2⁻¹⁰`.
-/
import proofs.«140847_j32306744000922_1_alg».proof.Proof.Gen.KernelIdeal.Skeleton
import proofs.«140847_j32306744000922_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen Cert.Spec

section Stages
variable {F : FTy → Type} [FloatOps F]

/-- The pixel losses of a block: channel axis dropped, then `0 - (y · log x · 10 + (1 - y) · log1p (0 - x))`. -/
def pixelLosses (x y : Vec F S4x1x512x512 .f32) : FVec F S4x512x512 .f32 :=
  subf (broadcast S4x512x512 (Scalar.ofBits .f32 0x00000000#32))
    (addf
      (mulf (mulf (shapeCast S4x512x512 y shapeCasts_S4x1x512x512_S4x512x512)
          (log (shapeCast S4x512x512 x shapeCasts_S4x1x512x512_S4x512x512)))
        (broadcast S4x512x512 (Scalar.ofBits .f32 0x41200000#32)))
      (mulf (subf (broadcast S4x512x512 (Scalar.ofBits .f32 0x3F800000#32)) (shapeCast S4x512x512 y shapeCasts_S4x1x512x512_S4x512x512))
        (log1p (subf (broadcast S4x512x512 (Scalar.ofBits .f32 0x00000000#32)) (shapeCast S4x512x512 x shapeCasts_S4x1x512x512_S4x512x512)))))

/-- Sums along each row of pixels. -/
def rowSums (v : FVec F S4x512x512 .f32) : FVec F S4x512 .f32 :=
  multiReduction .add [2] S4x512 v 0x00000000#32 reduces_S4x512x512_S4x512 (.inl rfl) rfl

/-- Sums of the row sums along the rows of each image (the row sums first given a trailing unit axis). -/
def imageSums (v : FVec F S4x512 .f32) : FVec F S4x1 .f32 :=
  multiReduction .add [1] S4x1 (shapeCast S4x512x1 v shapeCasts_S4x512_S4x512x1) 0x00000000#32 reduces_S4x512x1_S4x1 (.inl rfl) rfl

/-- Sum of the image sums over the block's 4 images. -/
def groupSum (v : FVec F S4x1 .f32) : FVec F S1x1 .f32 :=
  multiReduction .add [0] S1x1 (shapeCast S4x1x1 v shapeCasts_S4x1_S4x1x1) 0x00000000#32 reduces_S4x1x1_S1x1 (.inl rfl) rfl

/-- The one entry of a 1 × 1 vector. -/
def theEntry (v : FVec F S1x1 .f32) : F .f32 :=
  extractAt ![0, 0, 0] (shapeCast S1x1x1 v shapeCasts_S1x1_S1x1x1) inpos_S1x1x1_p0_0_0

/-- The payload is the tile read plus, in every entry, the block's sum times the scale word. -/
theorem payload_stages (x y : Vec F S4x1x512x512 .f32) (acc : Vec F S8x128 .f32) :
    k0_pay2 x y acc = addf (shapeCast S8x128 acc shapeCasts_S8x128_S8x128)
      (mulf (broadcast S8x128 (theEntry (groupSum (imageSums (rowSums (pixelLosses x y))))))
        (broadcast S8x128 (Scalar.ofBits .f32 0x3A800000#32))) := rfl

end Stages

/-! ## Each stage at an index, over the extended reals -/

/-- Dropping the unit channel axis of a block reads entry `(b, h, w)` at `(b, 0, h, w)`. -/
theorem dropChannel_apply (x : Vec Ideal S4x1x512x512 .f32) (b : Fin 4) (h w : Fin 512) :
    shapeCast S4x512x512 x shapeCasts_S4x1x512x512_S4x512x512 (ix3 b h w) = x (ix4 b 0 h w) :=
  shapeCast_apply x shapeCasts_S4x1x512x512_S4x512x512 (ix3 b h w) (ix4 b 0 h w) (by
    rw [Shape.rowMajor_val_four, Shape.rowMajor_val_three]
    show ((b.val * 1 + 0) * 512 + h.val) * 512 + w.val = (b.val * 512 + h.val) * 512 + w.val
    omega)

/-- Entry `(b, h, w)` of the pixel losses is the loss of that pixel of the block. -/
theorem pixelLosses_apply (x y : Vec Ideal S4x1x512x512 .f32) (b : Fin 4) (h w : Fin 512) :
    pixelLosses x y (ix3 b h w) = loss (x (ix4 b 0 h w)) (y (ix4 b 0 h w)) := by
  show Ideal.ofBits .f32 0x00000000#32
      - ((shapeCast S4x512x512 y shapeCasts_S4x1x512x512_S4x512x512 (ix3 b h w)
            * Ideal.log (shapeCast S4x512x512 x shapeCasts_S4x1x512x512_S4x512x512 (ix3 b h w))) * Ideal.ofBits .f32 0x41200000#32
        + (Ideal.ofBits .f32 0x3F800000#32 - shapeCast S4x512x512 y shapeCasts_S4x1x512x512_S4x512x512 (ix3 b h w))
            * Ideal.log1p (Ideal.ofBits .f32 0x00000000#32 - shapeCast S4x512x512 x shapeCasts_S4x1x512x512_S4x512x512 (ix3 b h w))) = _
  rw [dropChannel_apply, dropChannel_apply]
  exact loss_zero_sub _ _

/-- A row sum is the sum over the pixels of the row. -/
theorem rowSums_apply (v : FVec Ideal S4x512x512 .f32) (b : Fin 4) (h : Fin 512) :
    rowSums v (ix2 b h) = ∑ w : Fin 512, v (ix3 b h w) := by
  unfold rowSums
  refine (Ideal.multiReduction_add_single v 0x00000000#32 reduces_S4x512x512_S4x512 (.inl rfl) rfl (ix2 b h)).trans ?_
  exact Finset.sum_congr rfl fun w _ => congrArg v (funext fun a => by
    match a with
    | ⟨0, _⟩ => rfl
    | ⟨1, _⟩ => rfl
    | ⟨2, _⟩ => rfl)

/-- An image sum is the sum over the rows of the image. -/
theorem imageSums_apply (v : FVec Ideal S4x512 .f32) (b : Fin 4) :
    imageSums v (ix2 b 0) = ∑ h : Fin 512, v (ix2 b h) := by
  unfold imageSums
  refine (Ideal.multiReduction_add_single (shapeCast S4x512x1 v shapeCasts_S4x512_S4x512x1) 0x00000000#32
    reduces_S4x512x1_S4x1 (.inl rfl) rfl (ix2 b 0)).trans ?_
  refine Finset.sum_congr rfl fun h _ => ?_
  refine shapeCast_apply v shapeCasts_S4x512_S4x512x1 _ (ix2 b h) ?_
  rw [Shape.rowMajor_val_two, Shape.rowMajor_val_three]
  show b.val * 512 + h.val = (b.val * 512 + h.val) * 1 + 0
  omega

/-- The group sum is the sum over the 4 images. -/
theorem groupSum_apply (v : FVec Ideal S4x1 .f32) :
    groupSum v (ix2 0 0) = ∑ b : Fin 4, v (ix2 b 0) := by
  unfold groupSum
  refine (Ideal.multiReduction_add_single (shapeCast S4x1x1 v shapeCasts_S4x1_S4x1x1) 0x00000000#32
    reduces_S4x1x1_S1x1 (.inl rfl) rfl (ix2 0 0)).trans ?_
  refine Finset.sum_congr rfl fun b _ => ?_
  refine shapeCast_apply v shapeCasts_S4x1_S4x1x1 _ (ix2 b 0) ?_
  rw [Shape.rowMajor_val_two, Shape.rowMajor_val_three]
  show b.val * 1 + 0 = (b.val * 1 + 0) * 1 + 0
  omega

/-- The one entry of a 1 × 1 vector is its entry `(0, 0)`. -/
theorem theEntry_apply (v : FVec Ideal S1x1 .f32) : theEntry v = v (ix2 0 0) := by
  unfold theEntry extractAt
  refine shapeCast_apply v shapeCasts_S1x1_S1x1x1 _ (ix2 0 0) ?_
  rw [Shape.rowMajor_val_two, Shape.rowMajor_val_three]
  rfl

/-- The block's sum, stage by stage, is the specification's. -/
theorem stages_eq_blockSum (x y : Vec Ideal S4x1x512x512 .f32) :
    theEntry (groupSum (imageSums (rowSums (pixelLosses x y)))) = blockSum x y := by
  rw [theEntry_apply, groupSum_apply]
  unfold blockSum
  refine Finset.sum_congr rfl fun b _ => ?_
  rw [imageSums_apply]
  refine Finset.sum_congr rfl fun h _ => ?_
  rw [rowSums_apply]
  exact Finset.sum_congr rfl fun w _ => pixelLosses_apply x y b h w

/-- Entry `j` of the payload: the tile's entry plus the block's sum times `2⁻¹⁰`. -/
theorem payload_apply (x y : Vec Ideal S4x1x512x512 .f32) (acc : Vec Ideal S8x128 .f32) (j : S8x128.Idx) :
    k0_pay2 x y acc j = acc j + blockSum x y * scale := by
  rw [payload_stages, shapeCast_self]
  show acc j + theEntry (groupSum (imageSums (rowSums (pixelLosses x y)))) * Ideal.ofBits .f32 0x3A800000#32 = _
  rw [stages_eq_blockSum]

/-- Every entry of the tile the first point of a chunk stores is zero. -/
theorem zeroTile_apply (j : S8x128.Idx) : k0_pay1 (F := Ideal) j = 0 :=
  Ideal.ofBits_zero_f32

end Cert.KernelIdeal.Payload

end
-- ==== Proof.Blocks.lean ====
/-
  The input blocks of a grid point, as parts of the argument arrays.

  Grid point `t` (of 16) is handed images `4 t … 4 t + 3` of channel 0 of each argument: entry `(b, 0, h, w)` of its
  block of predictions is entry `(4 t + b, 0, h, w)` of the first argument, and likewise for the targets and the second
  argument. So the loss summed over the point's two blocks is the loss summed over the four images of group `t`.
-/
import proofs.«140847_j32306744000922_1_alg».proof.Proof.Gen.KernelIdeal.Frame
import proofs.«140847_j32306744000922_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.Spec

variable (m : (ℓ : Loc nD τ sig) → Buf (Elt Ideal) ℓ)

/-- The first argument (predictions) on core `c`, as the specification's array. -/
abbrev argX (c : Dev nD) : Arr := m ((c : Thread nD τ).loc main_arg0)
/-- The second argument (targets) on core `c`. -/
abbrev argY (c : Dev nD) : Arr := m ((c : Thread nD τ).loc main_arg1)

/-- Where the two input windows sit at point `t`: block `t` along the batch axis, block 0 along the others. -/
theorem window_index : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0) :=
  (by decide +kernel : ∀ t : Fin grid0.N, _)

/-- Entry `(b, 0, h, w)` of the predictions' block at point `t` is entry `(4 t + b, 0, h, w)` of the first argument. -/
theorem xblock_apply (c : Dev nD) (t : Fin cfg0.N) (b : Fin 4) (h w : Fin 512) (k : S64x2x512x512.Idx)
    (hk0 : (k 0).val = 4 * t.val + b.val) (hk1 : (k 1).val = 0) (hk2 : (k 2).val = h.val) (hk3 : (k 3).val = w.val) :
    (iblk m c 0 t : Vec Ideal S4x1x512x512 .f32) (ix4 b 0 h w) = argX m c k := by
  obtain ⟨⟨e0, e1, e2, e3⟩, -⟩ := window_index t
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 4 + 1 * b.val = (k 0).val; rw [e0, hk0]; omega
  | ⟨1, _⟩ => show win0_0.index t 1 * 1 + 1 * 0 = (k 1).val; rw [e1, hk1]
  | ⟨2, _⟩ => show win0_0.index t 2 * 512 + 1 * h.val = (k 2).val; rw [e2, hk2]; omega
  | ⟨3, _⟩ => show win0_0.index t 3 * 512 + 1 * w.val = (k 3).val; rw [e3, hk3]; omega

/-- The same for the targets' block and the second argument. -/
theorem yblock_apply (c : Dev nD) (t : Fin cfg0.N) (b : Fin 4) (h w : Fin 512) (k : S64x2x512x512.Idx)
    (hk0 : (k 0).val = 4 * t.val + b.val) (hk1 : (k 1).val = 0) (hk2 : (k 2).val = h.val) (hk3 : (k 3).val = w.val) :
    (iblk m c 1 t : Vec Ideal S4x1x512x512 .f32) (ix4 b 0 h w) = argY m c k := by
  obtain ⟨-, ⟨e0, e1, e2, e3⟩⟩ := window_index t
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 4 + 1 * b.val = (k 0).val; rw [e0, hk0]; omega
  | ⟨1, _⟩ => show win0_1.index t 1 * 1 + 1 * 0 = (k 1).val; rw [e1, hk1]
  | ⟨2, _⟩ => show win0_1.index t 2 * 512 + 1 * h.val = (k 2).val; rw [e2, hk2]; omega
  | ⟨3, _⟩ => show win0_1.index t 3 * 512 + 1 * w.val = (k 3).val; rw [e3, hk3]; omega

/-- The loss summed over the two blocks of point `t` is the loss summed over the images of group `t`. -/
theorem blockSum_point (c : Dev nD) (t : Fin cfg0.N) :
    blockSum (iblk m c 0 t : Vec Ideal S4x1x512x512 .f32) (iblk m c 1 t : Vec Ideal S4x1x512x512 .f32)
      = pt (argX m c) (argY m c) t.val := by
  have hN : t.val < 16 := lt_of_lt_of_eq t.isLt (show cfg0.N = 16 from N_0)
  unfold blockSum pt img px
  refine Finset.sum_congr rfl fun b _ => Finset.sum_congr rfl fun h _ => Finset.sum_congr rfl fun w _ => ?_
  have hr : (row (4 * t.val + b.val)).val = 4 * t.val + b.val := row_val (by have := b.isLt; omega)
  rw [xblock_apply m c t b h w (ix4 (row (4 * t.val + b.val)) 0 h w) hr rfl rfl rfl,
    yblock_apply m c t b h w (ix4 (row (4 * t.val + b.val)) 0 h w) hr rfl rfl rfl]

end Cert.KernelIdeal.Blocks

end
-- ==== Proof.Accumulate.lean ====
/-
  The output tile after each grid point.

  The 16 grid points are walked in order; points `8 cc … 8 cc + 7` are chunk `cc`. The first point of a chunk resets
  the tile to zero before adding its contribution, every other point adds to what the point before left. By induction
  on the point, every entry of the tile after point `n` is the sum, over the groups of `n`'s chunk up to `n`, of the
  group's loss times `2⁻¹⁰`.
-/
import proofs.«140847_j32306744000922_1_alg».proof.Proof.Body
import proofs.«140847_j32306744000922_1_alg».proof.Proof.Payload
import proofs.«140847_j32306744000922_1_alg».proof.Proof.Blocks

noncomputable section

open Idealize.ShloMosaic Idealize.ShloMosaic.TcCoe Idealize.SL.Sem Idealize.ShloMosaic.ValueIdx

namespace Cert.KernelIdeal.Accumulate

open Cert.KernelIdeal Cert.KernelIdeal.Gen Cert.Spec Cert.KernelIdeal.Blocks

variable (m : (ℓ : Loc nD τ sig) → Buf (Elt Ideal) ℓ)

/-- After the first point of a chunk an entry holds zero plus the point's spread sum. -/
theorem after_first (c : Dev nD) (t : Fin cfg0.N) (h0 : t.val % 8 = 0) (j : S8x128.Idx) :
    outsAt0 m c t.val t.isLt j = 0 + pt (argX m c) (argY m c) t.val * scale := by
  rw [outsAt0_A m c t h0]
  refine (congrFun (Body.first_point c (grid0.coords t) (ms0_0 t) (hs0_0 t) (ms0_1 t) (hs0_1 t) (ms0_2 t) (hs0_2 t)
    ((hcond0_0 t).mpr h0) (iblk m c 0 t) (iblk m c 1 t)) j).trans ?_
  refine (Payload.payload_apply (iblk m c 0 t) (iblk m c 1 t) (k0_pay1 (F := Ideal)) j).trans ?_
  rw [Payload.zeroTile_apply, blockSum_point]

/-- After any other point an entry holds what the point before left plus the point's spread sum. -/
theorem after_later (c : Dev nD) (t : Fin cfg0.N) (h0 : ¬t.val % 8 = 0) (j : S8x128.Idx) :
    outsAt0 m c t.val t.isLt j
      = outsAt0 m c (t.val - 1) (Nat.lt_of_le_of_lt (Nat.sub_le _ _) t.isLt) j + pt (argX m c) (argY m c) t.val * scale := by
  rw [outsAt0_B m c t h0]
  refine (congrFun (Body.later_point c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) j).trans ?_
  refine (Payload.payload_apply (iblk m c 0 t) (iblk m c 1 t)
    (outsAt0 m c (t.val - 1) (Nat.lt_of_le_of_lt (Nat.sub_le _ _) t.isLt)) j).trans ?_
  rw [blockSum_point]

/-- Every entry of the tile after point `n`. -/
theorem tile_after (c : Dev nD) : ∀ (n : ℕ) (hn : n < cfg0.N) (j : S8x128.Idx),
    outsAt0 m c n hn j = accAfter (argX m c) (argY m c) n
  | 0, hn, j => (after_first m c ⟨0, hn⟩ rfl j).trans (accAfter_first _ _ 0 rfl).symm
  | n + 1, hn, j => by
    by_cases h0 : (n + 1) % 8 = 0
    · exact (after_first m c ⟨n + 1, hn⟩ h0 j).trans (accAfter_first _ _ (n + 1) h0).symm
    · rw [accAfter_later _ _ (n + 1) h0]
      refine (after_later m c ⟨n + 1, hn⟩ h0 j).trans ?_
      show outsAt0 m c n _ j + _ = accAfter _ _ n + _
      rw [tile_after c n _ j]

end Cert.KernelIdeal.Accumulate

end
-- ==== Proof.Output.lean ====
/-
  The array the kernel's region leaves, and the kernel's result.

  The output array has shape 16 × 128. Its block of rows `8 cc … 8 cc + 7` is written back once, after the last point of
  chunk `cc` (points 7 and 15), with the tile as it then stands: every entry the sum over the chunk's 8 groups of the
  group's loss times `2⁻¹⁰`. The two blocks cover the array, so the region leaves exactly the specification's array of
  tiles. The host then adds up all 2048 entries starting from zero; by the specification's laws that sum is the total
  loss.
-/
import proofs.«140847_j32306744000922_1_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.Spec Cert.KernelIdeal.Blocks

variable (m : (ℓ : Loc nD τ sig) → Buf (Elt Ideal) ℓ) (ρ : Dev nD → PrngReg)

/-- The specification's array of tiles, as contents of the region's output array on core `c`. -/
abbrev tiles (c : Dev nD) : Buf (Elt Ideal) ((c : Thread nD τ).loc main_v0) := partials (argX m c) (argY m c)

/-- Where the output window sits at point `t`: block `t / 8` of rows, block 0 of lanes. -/
theorem out_index : ∀ t : Fin cfg0.N, win0_2.index t 0 = t.val / 8 ∧ win0_2.index t 1 = 0 :=
  (by decide +kernel : ∀ t : Fin grid0.N, _)

/-- What a writing-back point writes is its block of the array of tiles. -/
theorem flushed_eq (c : Dev nD) (t : Fin cfg0.N) (hf : (cfg0.win 2).flush t = true) :
    (dats m 0 c).flushed 2 t = ((cfg0.win 2).blk t).view.read (Elt Ideal) (tiles m c) := by
  have h7 : t.val % 8 = 7 := (flush0_2 t).mp hf
  obtain ⟨e0, e1⟩ := out_index t
  show (cfg0.win 2).cut (grid0.coords t) ((dats m 0 c).after 2 t) = _
  rw [after0_2]
  funext j
  show outsAt0 m c t.val t.isLt j = tiles m c (((cfg0.win 2).blk t).view.emb j)
  rw [Accumulate.tile_after m c t.val t.isLt j, accAfter_last _ _ _ h7]
  show tileVal _ _ (t.val / 8) = tileVal _ _ ((win0_2.index t 0 * 8 + 1 * (j 0).val) / 8)
  have hj : (j 0).val < 8 := (j 0).isLt
  rw [e0, show (t.val / 8 * 8 + 1 * (j 0).val) / 8 = t.val / 8 from by omega]

/-- An index of the array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Every index of the array is in the block some point writes back: row `r` in that of the last point of chunk `r / 8`. -/
theorem covered (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 16 := N_0
  obtain ⟨t, ht⟩ : ∃ t : Fin cfg0.N, t.val = 8 * ((i 0).val / 8) + 7 := ⟨⟨8 * ((i 0).val / 8) + 7, by rw [hN]; omega⟩, rfl⟩
  obtain ⟨e0, e1⟩ := out_index t
  refine ⟨t, (flush0_2 t).mpr (by rw [ht]; omega), ?_⟩
  rw [mem_blk]
  intro a
  match a with
  | ⟨0, _⟩ =>
    show win0_2.index t 0 * 8 ≤ (i 0).val ∧ (i 0).val < win0_2.index t 0 * 8 + 8
    rw [e0, ht]; omega
  | ⟨1, _⟩ =>
    show win0_2.index t 1 * 128 ≤ (i 1).val ∧ (i 1).val < win0_2.index t 1 * 128 + 128
    rw [e1]; omega

/-- The region leaves the array of tiles. -/
theorem region_array (c : Dev nD) : (dats m 0 c).arrAt 2 cfg0.N = tiles m c :=
  (dats m 0 c).arrAt_eq_of_cover 2 (tiles m c) (flushed_eq m c) covered

end Cert.KernelIdeal.Output

end
-- ==== Proof.Result.lean ====
/-
  The idealized kernel's run, read: its result is zero plus the total loss.

  After the region the host adds up every entry of the 16 × 128 output array starting from zero. The region leaves that
  array at the specification's array of tiles, whose entries add up to the total loss; the two argument arrays are only
  read, so they end as they began.
-/
import proofs.«140847_j32306744000922_1_alg».proof.Proof.Output
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Spec Cert.KernelIdeal.Blocks Cert.KernelIdeal.Output

variable (m : (ℓ : Loc nD τ sig) → Buf (Elt Ideal) ℓ) (ρ : Dev nD → PrngReg)

/-- The host's sum of the array of tiles from zero: zero plus the total loss. -/
theorem sum_tiles (c : Dev nD) :
    Host.reduceAdd (F := Ideal) (tiles m c) (constant (F := Ideal) S_ .f32 0x00000000#32) reducesTo_S16x128_S_d0_1 h_S_
      = fun _ => 0 + total (argX m c) (argY m c) := by
  funext i
  simp only [Host.reduceAdd, Ideal.hostReduceAdd_def]
  refine (Ideal.hostReduceAdd_total reducesTo_S16x128_S_d0_1 (fun b => b.elim0) (tiles m c) _ i).trans ?_
  show Ideal.ofBits .f32 0x00000000#32 + ∑ j, partials (argX m c) (argY m c) j = _
  rw [Ideal.ofBits_zero_f32, sum_partials]

/-- What the host operations after the region leave in the result buffer. -/
theorem tail_result (c : Dev nD) :
    Pipeline.afterTail₀ cfgs (dats m) 0 (V0 m) [hostOps1] c main_v1 = fun _ => 0 + total (argX m c) (argY m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = tiles m c :=
    (Pipeline.withArrays_arr spec0 launch0.win.arr_inj c _ _ 2).trans (region_array m c)
  rw [e]
  exact sum_tiles m c

/-- Every weakly fair execution of the idealized kernel terminates with the result at zero plus the total loss of the
    arguments, and the arguments unchanged. -/
theorem run : θ_run defs (onTc (τ := τ) (main (F := Ideal))) ⟨m, fun _ => 0, ρ⟩ fun r => ∀ c : Dev nD,
      r.2.mem ((c.tc : Thread nD τ).loc main_v1) = (fun _ => 0 + total (argX m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefValue.lean ====
/-
  The reference's result over the extended reals.

  The reference slices channel 0 out of both arguments, drops the unit channel axis, computes the loss of every pixel
  `-(y · log x · 10 + (1 - y) · log1p (-x))` and adds all 64 × 512 × 512 of them up starting from zero. Read at an index,
  pixel `(B, h, w)` of the sliced and reshaped arguments is entry `(B, 0, h, w)` of the arguments, and the sum over the
  rank-3 index set is the triple sum over its coordinates; so the result is zero plus the specification's total.
-/
import proofs.«140847_j32306744000922_1_alg».proof.Proof.Gen.ReferenceIdeal.Read
import proofs.«140847_j32306744000922_1_alg».proof.Proof.Spec

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.Spec

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The slice of channel 0 followed by the reshape reads pixel `(B, h, w)` at `(B, 0, h, w)` of the first argument … -/
theorem idx_x (B : Fin 64) (h w : Fin 512) : idx_main_v0 (idx_main_v1 (ix3 B h w)) = ix4 B 0 h w := by
  funext a
  apply Fin.ext
  have hB := B.isLt
  have hh := h.isLt
  have hw := w.isLt
  match a with
  | ⟨0, _⟩ => show ((B.val * 512 + h.val) * 512 + w.val) / 262144 = B.val; omega
  | ⟨1, _⟩ => rfl
  | ⟨2, _⟩ => show ((B.val * 512 + h.val) * 512 + w.val) / 512 % 512 = h.val; omega
  | ⟨3, _⟩ => show ((B.val * 512 + h.val) * 512 + w.val) % 512 = w.val; omega

/-- … and of the second. -/
theorem idx_y (B : Fin 64) (h w : Fin 512) : idx_main_v2 (idx_main_v3 (ix3 B h w)) = ix4 B 0 h w := by
  funext a
  apply Fin.ext
  have hB := B.isLt
  have hh := h.isLt
  have hw := w.isLt
  match a with
  | ⟨0, _⟩ => show ((B.val * 512 + h.val) * 512 + w.val) / 262144 = B.val; omega
  | ⟨1, _⟩ => rfl
  | ⟨2, _⟩ => show ((B.val * 512 + h.val) * 512 + w.val) / 512 % 512 = h.val; omega
  | ⟨3, _⟩ => show ((B.val * 512 + h.val) * 512 + w.val) % 512 = w.val; omega

/-- Entry `(B, h, w)` of the reference's array of losses is the loss of that pixel. -/
theorem pixel_apply (X Y : Arr) (B : Fin 64) (h w : Fin 512) :
    val_main_v14 (F := Ideal) X Y (ix3 B h w) = loss (X (ix4 B 0 h w)) (Y (ix4 B 0 h w)) := by
  rw [val_main_v14_apply, val_main_v13_apply, val_main_v7_apply, val_main_v12_apply, val_main_v5_apply,
    val_main_v6_apply, val_main_v9_apply, val_main_v11_apply, val_main_v4_apply, val_main_v3_apply,
    val_main_v8_apply, val_main_v10_apply, val_main_v1_apply, val_main_v2_apply, val_main_v0_apply,
    val_main_cst_apply, val_main_cst_0_apply, idx_x, idx_y]
  simp only [Ideal.hostNegf_def, Ideal.negf_def, Ideal.addf_def, Ideal.mulf_def, Ideal.subf_def,
    Ideal.hostUnary_log_def, Ideal.hostUnary_log1p_def, Ideal.ofBits_def]
  rfl

/-- The reference's result is zero plus the total loss. -/
theorem result_eq (X Y : Arr) : val_main_v15 (F := Ideal) X Y = fun _ => 0 + total X Y := by
  funext i
  rw [val_main_v15_apply, val_main_cst_1_apply]
  show Ideal.ofBits .f32 0x00000000#32 + _ = _
  rw [Ideal.ofBits_zero_f32, sum_idx3]
  unfold total img px
  refine congrArg (0 + ·) ?_
  refine Finset.sum_congr rfl fun B _ => Finset.sum_congr rfl fun h _ => Finset.sum_congr rfl fun w _ => ?_
  rw [pixel_apply, show row B.val = B from Fin.ext (row_val B.isLt)]

end Cert.ReferenceIdeal.RefValue

end
-- ==== Proof.lean ====
/-
  The certificate's claims.

  The kernel computes a weighted binary cross-entropy over channel 0 of two 64 × 2 × 512 × 512 arrays: it walks the
  batch in 16 groups of 4 images, spreads each group's sum over an 8 × 128 tile with the factor `2⁻¹⁰`, accumulates the
  tiles of each chunk of 8 groups, and lets the host add up all entries of the two tiles. The reference adds up the
  64 × 512 × 512 pixel losses at once. Over the extended reals both results are zero plus the same total:

  * the pixel loss is one function on both sides (the logarithms are the same functions, and `0 - a = -a`);
  * 1024 copies of `t · 2⁻¹⁰` add up to `t` for every extended real `t`, the infinities included;
  * finite sums of extended reals may be regrouped and reordered freely.

  None of these needs the inputs to be finite, so the precondition is not used. The three frames are the generated frame
  runs (the reference's: its generated run with the result dropped); the idealization rewrote nothing, so the kernel
  is its own idealization.
-/
import proofs.«140847_j32306744000922_1_alg».proof.Defs
import proofs.«140847_j32306744000922_1_alg».proof.Proof.Gen.Kernel
import proofs.«140847_j32306744000922_1_alg».proof.Proof.Gen.Kernel.Skeleton
import proofs.«140847_j32306744000922_1_alg».proof.Proof.Gen.Kernel.Launch
import proofs.«140847_j32306744000922_1_alg».proof.Proof.Gen.Kernel.Points
import proofs.«140847_j32306744000922_1_alg».proof.Proof.Gen.Kernel.Frame
import proofs.«140847_j32306744000922_1_alg».proof.Proof.Gen.KernelIdeal
import proofs.«140847_j32306744000922_1_alg».proof.Proof.Gen.KernelIdeal.Skeleton
import proofs.«140847_j32306744000922_1_alg».proof.Proof.Gen.KernelIdeal.Launch
import proofs.«140847_j32306744000922_1_alg».proof.Proof.Gen.KernelIdeal.Points
import proofs.«140847_j32306744000922_1_alg».proof.Proof.Gen.KernelIdeal.Frame
import proofs.«140847_j32306744000922_1_alg».proof.Proof.Gen.ReferenceIdeal
import proofs.«140847_j32306744000922_1_alg».proof.Proof.Gen.ReferenceIdeal.Run
import proofs.«140847_j32306744000922_1_alg».proof.Proof.Gen.ReferenceIdeal.Read
import proofs.«140847_j32306744000922_1_alg».proof.Proof.Gen.Pre_finite_inputs
import proofs.«140847_j32306744000922_1_alg».proof.Proof.Result
import proofs.«140847_j32306744000922_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the idealized kernel and the idealized reference both end with zero plus the total
    loss of the arguments. -/
theorem algebraic : Cert.algebraic_KernelIdeal_ReferenceIdeal := by
  intro m ρ m' ρ' _ hagree
  refine ⟨fun c => fun _ => 0 + Cert.Spec.total (Cert.KernelIdeal.Blocks.argX m c) (Cert.KernelIdeal.Blocks.argY m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v15_eq _ _).trans ?_
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
